-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S3x64x64 : Shape := ⟨3, ![3, 64, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S1048576x64 .f32) (main_arg1 : FVec F S64x64 .f32) (main_arg2 : FVec F S3x64x64 .f32) (main_arg3 : FVec F S64x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1048576x64 : Shape := ⟨2, ![1048576, 64]⟩
abbrev S64x64 : Shape := ⟨2, ![64, 64]⟩
abbrev S3x64x64 : Shape := ⟨3, ![3, 64, 64]⟩
abbrev S8192x64 : Shape := ⟨2, ![8192, 64]⟩
abbrev S64x8192 : Shape := ⟨2, ![64, 8192]⟩
abbrev S1x64x64 : Shape := ⟨3, ![1, 64, 64]⟩

abbrev nBuf : Space → Nat
  | .hbm => 8
  | .vmem => 7
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S3x64x64, .f32⟩
  | .hbm, ⟨3, _⟩ => ⟨S64x64, .f32⟩
  | .hbm, ⟨4, _⟩ => ⟨S64x64, .bf16⟩
  | .hbm, ⟨5, _⟩ => ⟨S3x64x64, .bf16⟩
  | .hbm, ⟨6, _⟩ => ⟨S64x64, .bf16⟩
  | .hbm, ⟨7, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S64x64, .bf16⟩
  | .local _ .vmem, ⟨3, _⟩ => ⟨S3x64x64, .bf16⟩
  | .local _ .vmem, ⟨4, _⟩ => ⟨S64x64, .bf16⟩
  | .local _ .vmem, ⟨5, _⟩ => ⟨S8192x64, .f32⟩
  | .local _ .vmem, ⟨6, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  transposes_S8192x64_p1_0_S64x8192 : S8192x64.Transposes [1, 0] S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  transposes_S64x8192_p1_0_S8192x64 : S64x8192.Transposes [1, 0] S8192x64
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .bf16 = 32 ∨ (Rect.block (s := S3x64x64) S3x64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S1048576x64.size a
  hwx0_4 : ∀ i : grid0.Coords, EltTy.bits .f32 = 32 ∨ (Rect.block (s := S1048576x64) S8192x64.size (cc0_transform_4 i) (hinb0_4 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S3x64x64 : Shape := ⟨3, ![3, 64, 64]⟩
abbrev S_ : Shape := ⟨0, ![]⟩
abbrev S1x64x64 : Shape := ⟨3, ![1, 64, 64]⟩

abbrev nBuf : Space → Nat
  | .hbm => 27
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S3x64x64, .f32⟩
  | .hbm, ⟨3, _⟩ => ⟨S64x64, .f32⟩
  | .hbm, ⟨4, _⟩ => ⟨S1048576x64, .f32⟩
  | .hbm, ⟨5, _⟩ => ⟨S_, .f32⟩
  | .hbm, ⟨6, _⟩ => ⟨S1048576x64, .f32⟩
  | .hbm, ⟨7, _⟩ => ⟨S1048576x64, .f32⟩
  | .hbm, ⟨8, _⟩ => ⟨S1x64x64, .f32⟩
  | .hbm, ⟨9, _⟩ => ⟨S64x64, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1x64x64, .f32⟩
  | .hbm, ⟨15, _⟩ => ⟨S64x64, .f32⟩
  | .hbm, ⟨16, _⟩ => ⟨S1048576x64, .f32⟩
  | .hbm, ⟨17, _⟩ => ⟨S_, .f32⟩
  | .hbm, ⟨18, _⟩ => ⟨S1048576x64, .f32⟩
  | .hbm, ⟨19, _⟩ => ⟨S1048576x64, .f32⟩
  | .hbm, ⟨20, _⟩ => ⟨S1x64x64, .f32⟩
  | .hbm, ⟨21, _⟩ => ⟨S64x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_cst : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call3_cst : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  dot_S1048576x64_S64x64_S1048576x64_1_1_0_0_n_n_wf : DotDims.WF S1048576x64 S64x64 S1048576x64 [1] [1] [0] [0] [] []

variable [Facts₀]

def dot_S1048576x64_S64x64_S1048576x64_1_1_0_0_n_n : DotDims S1048576x64 S64x64 S1048576x64 where
  lhsContracting := [1]
  rhsContracting := [1]
  lhsNonContracting := [0]
  rhsNonContracting := [0]
  lhsBatch := []
  rhsBatch := []
  wf := dot_S1048576x64_S64x64_S1048576x64_1_1_0_0_n_n_wf

class Facts : Prop extends Facts₀ where

variable [Facts]
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibDenseLayers.lean ====
/-
  Dense layers on the extended reals.

  A dense layer sends a vector of `n` features to `m` features: feature `w` of the result is the sum over `k`
  of `W w k · h k`.  A hidden layer clips that at zero.  A narrow perceptron is an input layer, three hidden
  layers and a linear output layer, applied to one row of features.  Multiplication of extended reals is
  commutative, so it does not matter on which side of each product the weight stands; no other law is used, and
  in particular nothing here needs the entries to be finite.
-/
import Idealize.ShloMosaic.PureOps.Ideal

noncomputable section

open scoped BigOperators

namespace Cert.DenseLayers

variable {n m : Nat}

/-- Feature `w` of a dense layer: row `w` of the weights against the features. -/
def dense (W : Fin m → Fin n → EReal) (h : Fin n → EReal) (w : Fin m) : EReal := ∑ k : Fin n, W w k * h k

/-- A dense layer clipped at zero. -/
def layer (W : Fin m → Fin n → EReal) (h : Fin n → EReal) (w : Fin m) : EReal := max (dense W h w) 0

/-- The same feature with the weight written on the right of each product. -/
theorem dense_comm (W : Fin m → Fin n → EReal) (h : Fin n → EReal) (w : Fin m) :
    dense W h w = ∑ k : Fin n, h k * W w k :=
  Finset.sum_congr rfl fun k _ => mul_comm _ _

/-- A clipped layer with the weight written on the right of each product. -/
theorem layer_comm (W : Fin m → Fin n → EReal) (h : Fin n → EReal) (w : Fin m) :
    layer W h w = max (∑ k : Fin n, h k * W w k) 0 := by
  unfold layer; rw [dense_comm]

/-- A dense layer depends only on the weights and the features it is given. -/
theorem dense_congr {W W' : Fin m → Fin n → EReal} {h h' : Fin n → EReal} (hW : W = W') (hh : h = h') :
    dense W h = dense W' h' := by subst hW; subst hh; rfl

/-- So does a clipped one. -/
theorem layer_congr {W W' : Fin m → Fin n → EReal} {h h' : Fin n → EReal} (hW : W = W') (hh : h = h') :
    layer W h = layer W' h' := by subst hW; subst hh; rfl

/-- The perceptron on one row `x` of `n` features: an input layer, three hidden layers, each clipped at zero,
    then a linear output layer; all hidden widths equal. -/
def net (Win W0 W1 W2 Wout : Fin n → Fin n → EReal) (x : Fin n → EReal) (o : Fin n) : EReal :=
  dense Wout (layer W2 (layer W1 (layer W0 (layer Win x)))) o

end Cert.DenseLayers

end
-- ==== Proof.BodyAtEntry.lean ====
/-
  What the kernel body stores, entry by entry.

  The body works on a tile of 8192 batch rows with the batch along the columns: it transposes the tile to
  64 × 8192, multiplies weight matrices on the left — each product `W · H` has entry `(w, r)` equal to the sum over
  `k` of `W (w, k) · H (k, r)`, the weight on the left —, clips at zero after each of the first four products,
  and transposes the last product back.  So entry `(r, o)` of what it stores is the perceptron of
  `LibDenseLayers` applied to row `r` of the tile.  Changes of float format are the identity on extended reals.
-/
import proofs.«119765_j59390807769684_2_alg».proof.Proof.Gen.KernelIdeal.Skeleton
import proofs.«119765_j59390807769684_2_alg».proof.Proof.LibMatRows
import proofs.«119765_j59390807769684_2_alg».proof.Proof.LibDenseLayers
import Idealize.ShloMosaic.Lib.ValueLayout

noncomputable section

open Idealize.ShloMosaic Idealize.ShloMosaic.ValueIdx Cert.DenseLayers

namespace Cert.KernelIdeal.Body

open Cert.KernelIdeal Cert.KernelIdeal.Gen

/-- The product of a weight matrix with the transposed activations, in the body's own words. -/
abbrev times (W : FVec Ideal S64x64 .bf16) (H : FVec Ideal S64x8192 .bf16) : FVec Ideal S64x8192 .f32 :=
  matmul dot_S64x64_S64x8192_S64x8192_1_0_0_1_n_n none W H (constant (F := Ideal) S64x8192 .f32 0x00000000#32)

/-- A hidden layer in the body's own words: the product, its maximum with the zero splat, narrowed. -/
abbrev hiddenStep (W : FVec Ideal S64x64 .bf16) (H : FVec Ideal S64x8192 .bf16) : FVec Ideal S64x8192 .bf16 :=
  truncf .bf16 (maximumf (times W H) (broadcast S64x8192 (Scalar.ofBits (F := Ideal) .f32 0x00000000#32))) bitsLt_bf16_f32

/-- Entry `(w, r)` of a product: row `w` of the weights against column `r` of the activations. -/
theorem times_apply (W : FVec Ideal S64x64 .bf16) (H : FVec Ideal S64x8192 .bf16) (w : Fin 64) (r : Fin 8192) :
    times W H (ix2 w r) = dense (fun w k => W (ix2 w k)) (fun k => H (ix2 k r)) w :=
  Cert.MatRows.matmul_zero_apply dot_S64x64_S64x8192_S64x8192_1_0_0_1_n_n rfl rfl
    (fun j k => by
      unfold DotDims.lhsIdx
      rw [dif_neg (show ¬(0 : Fin S64x64.rank) ∈ dot_S64x64_S64x8192_S64x8192_1_0_0_1_n_n.lhsBatch by decide),
        dif_pos (show (0 : Fin S64x64.rank) ∈ dot_S64x64_S64x8192_S64x8192_1_0_0_1_n_n.lhsNonContracting by decide)]
      rfl)
    (fun j k => dot_S64x64_S64x8192_S64x8192_1_0_0_1_n_n.lhsIdx_val_of_single rfl j k)
    (fun j k => dot_S64x64_S64x8192_S64x8192_1_0_0_1_n_n.rhsIdx_val_of_single rfl j k)
    (fun j k => by
      unfold DotDims.rhsIdx
      rw [dif_neg (show ¬(1 : Fin S64x8192.rank) ∈ dot_S64x64_S64x8192_S64x8192_1_0_0_1_n_n.rhsBatch by decide),
        dif_pos (show (1 : Fin S64x8192.rank) ∈ dot_S64x64_S64x8192_S64x8192_1_0_0_1_n_n.rhsNonContracting by decide)]
      rfl)
    W H w r

/-- Column `r` of a hidden layer's result is the clipped dense layer of column `r` of its operand. -/
theorem hiddenStep_col (W : FVec Ideal S64x64 .bf16) (H : FVec Ideal S64x8192 .bf16) (r : Fin 8192) :
    (fun k : Fin 64 => hiddenStep W H (ix2 k r)) = layer (fun w k => W (ix2 w k)) (fun k => H (ix2 k r)) := by
  funext w
  show max (times W H (ix2 w r)) (Ideal.ofBits .f32 0x00000000#32) = _
  rw [times_apply, Ideal.ofBits_zero_f32]
  rfl

/-- The tile narrowed and transposed, in the body's own words: features along the rows, batch along the columns. -/
abbrev tileT (v0 : Vec Ideal S8192x64 .f32) : FVec Ideal S64x8192 .bf16 :=
  transpose S64x8192 [1, 0] (truncf (F := Ideal) .bf16 v0 bitsLt_bf16_f32 : FVec Ideal S8192x64 .bf16) transposes_S8192x64_p1_0_S64x8192

/-- Entry `(k, r)` of the transposed tile is entry `(r, k)` of the tile. -/
theorem tileT_apply (v0 : Vec Ideal S8192x64 .f32) (k : Fin 64) (r : Fin 8192) : tileT v0 (ix2 k r) = v0 (ix2 r k) :=
  transpose_ix2_apply (truncf (F := Ideal) .bf16 v0 bitsLt_bf16_f32 : FVec Ideal S8192x64 .bf16) transposes_S8192x64_p1_0_S64x8192 k r

/-- Column `r` of the transposed tile is row `r` of the tile. -/
theorem tile_col (v0 : Vec Ideal S8192x64 .f32) (r : Fin 8192) :
    (fun k : Fin 64 => tileT v0 (ix2 k r)) = fun k => v0 (ix2 r k) :=
  funext fun k => tileT_apply v0 k r

/-- The body's arithmetic is four hidden layers and an output product between two transposes. -/
theorem pay_eq (v0 : Vec Ideal S8192x64 .f32) (v3 : Vec Ideal S64x64 .bf16) (v9 v15 v21 : Vec Ideal S1x64x64 .bf16)
    (v27 : Vec Ideal S64x64 .bf16) :
    k0_pay1 v0 v3 v9 v15 v21 v27
      = transpose S8192x64 [1, 0]
          (times (shapeCast S64x64 v27 shapeCasts_S64x64_S64x64)
            (hiddenStep (shapeCast S64x64 v21 shapeCasts_S1x64x64_S64x64)
              (hiddenStep (shapeCast S64x64 v15 shapeCasts_S1x64x64_S64x64)
                (hiddenStep (shapeCast S64x64 v9 shapeCasts_S1x64x64_S64x64)
                  (hiddenStep (shapeCast S64x64 v3 shapeCasts_S64x64_S64x64)
                    (tileT v0))))))
          transposes_S64x8192_p1_0_S8192x64 := rfl

/-- Entry `(r, o)` of what the body stores: the perceptron of row `r` of the tile, with the weights as loaded. -/
theorem pay_apply (v0 : Vec Ideal S8192x64 .f32) (v3 : Vec Ideal S64x64 .bf16) (v9 v15 v21 : Vec Ideal S1x64x64 .bf16)
    (v27 : Vec Ideal S64x64 .bf16) (r : Fin 8192) (o : Fin 64) :
    k0_pay1 v0 v3 v9 v15 v21 v27 (ix2 r o)
      = net (n := 64) (fun w k => v3 (ix2 w k)) (fun w k => v9 (ix3 (0 : Fin 1) w k)) (fun w k => v15 (ix3 (0 : Fin 1) w k))
          (fun w k => v21 (ix3 (0 : Fin 1) w k)) (fun w k => v27 (ix2 w k)) (fun k => v0 (ix2 r k)) o := by
  rw [pay_eq, transpose_ix2_apply, times_apply, hiddenStep_col, hiddenStep_col, hiddenStep_col, hiddenStep_col, tile_col]
  unfold net
  simp only [shapeCast_self, shapeCast_1ab_ab_apply]

end Cert.KernelIdeal.Body

end
-- ==== Proof.MlpArray.lean ====
/-
  The perceptron over a whole batch: what both programs compute.

  `x` holds 1,048,576 rows of 64 features; `w_in`, the three slices of `w_hidden` and `w_out` are 64 × 64 weight
  matrices stored as (output feature, input feature).  Row `b` of the result is the perceptron of
  `LibDenseLayers` applied to row `b` of `x`: entry `(b, o)` depends on row `b` of `x` and on all the weights,
  and on nothing else.
-/
import proofs.«119765_j59390807769684_2_alg».proof.Proof.LibDenseLayers
import Idealize.ShloMosaic.Lib.ValueIdx

noncomputable section

open Idealize.ShloMosaic Idealize.ShloMosaic.ValueIdx Cert.DenseLayers

namespace Cert.Mlp

/-- The result array as one function of the four argument arrays, entry by entry. -/
def whole (x : (⟨2, ![1048576, 64]⟩ : Shape).Idx → EReal) (w_in : (⟨2, ![64, 64]⟩ : Shape).Idx → EReal)
    (w_hidden : (⟨3, ![3, 64, 64]⟩ : Shape).Idx → EReal) (w_out : (⟨2, ![64, 64]⟩ : Shape).Idx → EReal) :
    (⟨2, ![1048576, 64]⟩ : Shape).Idx → EReal := fun i =>
  net (n := 64) (fun w k => w_in (ix2 w k)) (fun w k => w_hidden (ix3 (0 : Fin 3) w k))
    (fun w k => w_hidden (ix3 (1 : Fin 3) w k)) (fun w k => w_hidden (ix3 (2 : Fin 3) w k))
    (fun w k => w_out (ix2 w k)) (fun k => x (ix2 (i 0) k)) (i 1)

/-- Entry `(b, o)` written out. -/
theorem whole_apply (x : (⟨2, ![1048576, 64]⟩ : Shape).Idx → EReal) (w_in : (⟨2, ![64, 64]⟩ : Shape).Idx → EReal)
    (w_hidden : (⟨3, ![3, 64, 64]⟩ : Shape).Idx → EReal) (w_out : (⟨2, ![64, 64]⟩ : Shape).Idx → EReal)
    (b : Fin 1048576) (o : Fin 64) :
    whole x w_in w_hidden w_out (ix2 b o)
      = net (n := 64) (fun w k => w_in (ix2 w k)) (fun w k => w_hidden (ix3 (0 : Fin 3) w k))
          (fun w k => w_hidden (ix3 (1 : Fin 3) w k)) (fun w k => w_hidden (ix3 (2 : Fin 3) w k))
          (fun w k => w_out (ix2 w k)) (fun k => x (ix2 b k)) o := rfl

end Cert.Mlp

end
-- ==== Proof.TilesToArray.lean ====
/-
  From tiles to the whole result.

  Grid point `t` of 128 works on rows `8192·t … 8192·t + 8191` of `x` and of the result, and on the whole of each
  weight array.  Entry `(r, o)` of what it writes back is the perceptron of row `8192·t + r` of `x`: that is tile
  `t` of the batch-wide function of `MlpArray`.  The 128 tiles cover every row, so the result array ends holding
  that function; the weights the region finds are the arguments narrowed, which on extended reals are the
  arguments themselves.
-/
import proofs.«119765_j59390807769684_2_alg».proof.Proof.Gen.KernelIdeal.Value
import proofs.«119765_j59390807769684_2_alg».proof.Proof.BodyAtEntry
import proofs.«119765_j59390807769684_2_alg».proof.Proof.MlpArray
import Idealize.ShloMosaic.Lib.StableHlo.Run

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx Cert.DenseLayers
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the tile of `x` and of the result at block row `t`, every
    weight array whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the tile of `x` at point `t` is row `8192·t + r` of `x`. -/
theorem tile_x (c : Dev nD) (t : Fin cfg0.N) (r : Fin 8192) (k : Fin 64) (b : Fin 1048576) (hb : b.val = t.val * 8192 + r.val) :
    iblk m c 0 t (ix2 r k) = V m c main_arg0 (ix2 b k) := by
  obtain ⟨e0, e1, -⟩ := index_facts t
  show V m c main_arg0 (((cfg0.win 0).blk t).view.emb (ix2 r k)) = _
  refine congrArg (V m c main_arg0) (funext fun a => Fin.ext ?_)
  match a with
  | ⟨0, _⟩ => show win0_0.index t (0 : Fin 2) * 8192 + 1 * r.val = b.val; omega
  | ⟨1, _⟩ => show win0_0.index t (1 : Fin 2) * 64 + 1 * k.val = k.val; omega

/-- The block of the input weights is the whole array. -/
theorem tile_w_in (c : Dev nD) (t : Fin cfg0.N) (w k : Fin 64) : iblk m c 1 t (ix2 w k) = V m c main_v0 (ix2 w k) := by
  obtain ⟨-, -, e0, e1, -⟩ := index_facts t
  show V m c main_v0 (((cfg0.win 1).blk t).view.emb (ix2 w k)) = _
  refine congrArg (V m c main_v0) (funext fun a => Fin.ext ?_)
  match a with
  | ⟨0, _⟩ => show win0_1.index t (0 : Fin 2) * 64 + 1 * w.val = w.val; omega
  | ⟨1, _⟩ => show win0_1.index t (1 : Fin 2) * 64 + 1 * k.val = k.val; omega

/-- The block of the output weights is the whole array. -/
theorem tile_w_out (c : Dev nD) (t : Fin cfg0.N) (w k : Fin 64) : iblk m c 3 t (ix2 w k) = V m c main_v2 (ix2 w k) := by
  obtain ⟨-, -, -, -, -, -, -, e0, e1, -⟩ := index_facts t
  show V m c main_v2 (((cfg0.win 3).blk t).view.emb (ix2 w k)) = _
  refine congrArg (V m c main_v2) (funext fun a => Fin.ext ?_)
  match a with
  | ⟨0, _⟩ => show win0_3.index t (0 : Fin 2) * 64 + 1 * w.val = w.val; omega
  | ⟨1, _⟩ => show win0_3.index t (1 : Fin 2) * 64 + 1 * k.val = k.val; omega

/-- The block of the hidden weights is the whole stack; slice `l` of it, loaded as a `1 × 64 × 64` piece from
    offset `l`, reads the stack at `(l, w, k)`. -/
theorem tile_w_hidden (c : Dev nD) (t : Fin cfg0.N) (l : Fin 3) (off : Fin 3 → Nat) (hoff : off = ![l.val, 0, 0])
    (inb : ∀ a, off a + S1x64x64.size a ≤ S3x64x64.size a) (w k : Fin 64) :
    View.ld (iblk m c 2 t) (Rect.unit (s := S3x64x64) off S1x64x64.size inb) (ix3 (0 : Fin 1) w k) = V m c main_v1 (ix3 l w k) := by
  subst hoff
  obtain ⟨-, -, -, -, e0, e1, e2, -⟩ := index_facts t
  show V m c main_v1 (((cfg0.win 2).blk t).view.emb ((Rect.unit (s := S3x64x64) ![l.val, 0, 0] S1x64x64.size inb).idx (ix3 (0 : Fin 1) w k))) = _
  refine congrArg (V m c main_v1) (funext fun a => Fin.ext ?_)
  match a with
  | ⟨0, _⟩ => show win0_2.index t (0 : Fin 3) * 3 + 1 * (l.val + 1 * 0) = l.val; omega
  | ⟨1, _⟩ => show win0_2.index t (1 : Fin 3) * 64 + 1 * (0 + 1 * w.val) = w.val; omega
  | ⟨2, _⟩ => show win0_2.index t (2 : Fin 3) * 64 + 1 * (0 + 1 * k.val) = k.val; omega

/-- What point `t` writes back is tile `t` of the batch-wide perceptron of the arrays the region finds. -/
theorem flushed_eq (c : Dev nD) (t : Fin cfg0.N) :
    (dats m 0 c).flushed 4 t = ((cfg0.win 4).blk t).view.read (Elt Ideal)
      (Cert.Mlp.whole (V m c main_arg0) (V m c main_v0) (V m c main_v1) (V m c main_v2)) := by
  rw [Cert.KernelIdeal.Value.flushed4]
  unfold out0_4
  rw [View.canon_unit_zero zero_offsets]
  simp only [View.ld_unit_zero (S := S8192x64) zero_offsets, View.ld_unit_zero (S := S64x64) zero_offsets]
  funext j
  obtain ⟨r, o, rfl⟩ : ∃ (r : Fin 8192) (o : Fin 64), j = ix2 r o := ⟨j 0, j 1, eq_ix2 j⟩
  obtain ⟨-, -, -, -, -, -, -, -, -, e0, e1⟩ := index_facts t
  have hr := r.isLt; have ho := o.isLt; have ht : t.val < 128 := t.isLt
  have hemb : ((cfg0.win 4).blk t).view.emb (ix2 r o) = ix2 (⟨t.val * 8192 + r.val, by omega⟩ : Fin 1048576) o := by
    funext a; apply Fin.ext
    match a with
    | ⟨0, _⟩ => show win0_4.index t (0 : Fin 2) * 8192 + 1 * r.val = t.val * 8192 + r.val; omega
    | ⟨1, _⟩ => show win0_4.index t (1 : Fin 2) * 64 + 1 * o.val = o.val; omega
  show k0_pay1 (iblk m c 0 t) (iblk m c 1 t) (View.ld (iblk m c 2 t) r0_2) (View.ld (iblk m c 2 t) r0_3)
      (View.ld (iblk m c 2 t) r0_4) (iblk m c 3 t) (ix2 r o)
    = Cert.Mlp.whole (V m c main_arg0) (V m c main_v0) (V m c main_v1) (V m c main_v2) (((cfg0.win 4).blk t).view.emb (ix2 r o))
  rw [hemb, Cert.Mlp.whole_apply]
  refine (Cert.KernelIdeal.Body.pay_apply _ _ _ _ _ _ r o).trans ?_
  refine congrFun (dense_congr (funext fun w => funext fun k => tile_w_out m c t w k) ?_) o
  refine layer_congr (funext fun w => funext fun k => tile_w_hidden m c t 2 _ rfl _ w k) ?_
  refine layer_congr (funext fun w => funext fun k => tile_w_hidden m c t 1 _ rfl _ w k) ?_
  refine layer_congr (funext fun w => funext fun k => tile_w_hidden m c t 0 _ rfl _ w k) ?_
  exact layer_congr (funext fun w => funext fun k => tile_w_in m c t w k)
    (funext fun k => tile_x m c t r k _ rfl)

/-- The input weights as the region finds them: the argument narrowed, on extended reals the argument itself. -/
theorem found_w_in (c : Dev nD) : (V m c main_v0 : S64x64.Idx → EReal) = m ((c : Thread nD τ).loc main_arg1) := by
  dsimp only [Gen.V, Gen.hostOps0]; after_results; rfl

/-- The hidden weights as the region finds them. -/
theorem found_w_hidden (c : Dev nD) : (V m c main_v1 : S3x64x64.Idx → EReal) = m ((c : Thread nD τ).loc main_arg2) := by
  dsimp only [Gen.V, Gen.hostOps0]; after_results; rfl

/-- The output weights as the region finds them. -/
theorem found_w_out (c : Dev nD) : (V m c main_v2 : S64x64.Idx → EReal) = m ((c : Thread nD τ).loc main_arg3) := by
  dsimp only [Gen.V, Gen.hostOps0]; after_results; rfl

/-- An entry of the result lies in tile `t` iff each coordinate lies in the tile's range on its axis. -/
theorem mem_tile (t : Fin cfg0.N) (i : S1048576x64.Idx) :
    i ∈ ((cfg0.win 4).blk t).view.set ↔ ∀ a : Fin 2, win0_4.index t a * S8192x64.size a ≤ (i a).val
      ∧ (i a).val < win0_4.index t a * S8192x64.size a + S8192x64.size a := by
  show i ∈ ((View.whole main_v3).slice (win0_4.rect t)).set ↔ _
  rw [View.set_slice_whole, Rect.mem_set_unit]
  exact Iff.rfl

/-- Row `b` of the result lies in tile `b / 8192`: the tiles cover the array. -/
theorem cover (i : S1048576x64.Idx) :
    ∃ t : Fin cfg0.N, (cfg0.win 4).flush t = true ∧ i ∈ ((cfg0.win 4).blk t).view.set := by
  have h0 : (i 0).val < 1048576 := (i 0).isLt
  have h1 : (i 1).val < 64 := (i 1).isLt
  have hq : (i 0).val / 8192 < 128 := by omega
  obtain ⟨-, -, -, -, -, -, -, -, -, e0, e1⟩ := index_facts ⟨(i 0).val / 8192, hq⟩
  have e0' : win0_4.index ⟨(i 0).val / 8192, hq⟩ (0 : Fin 2) = (i 0).val / 8192 := e0
  refine ⟨⟨(i 0).val / 8192, hq⟩, flush0_4 _, ?_⟩
  rw [mem_tile]
  intro a
  match a with
  | ⟨0, _⟩ =>
    show win0_4.index ⟨(i 0).val / 8192, hq⟩ (0 : Fin 2) * 8192 ≤ (i 0).val
      ∧ (i 0).val < win0_4.index ⟨(i 0).val / 8192, hq⟩ (0 : Fin 2) * 8192 + 8192
    omega
  | ⟨1, _⟩ =>
    show win0_4.index ⟨(i 0).val / 8192, hq⟩ (1 : Fin 2) * 64 ≤ (i 1).val
      ∧ (i 1).val < win0_4.index ⟨(i 0).val / 8192, hq⟩ (1 : Fin 2) * 64 + 64
    omega

/-- The result array after the run is the batch-wide perceptron of the four arguments as launched. -/
theorem final (c : Dev nD) :
    (dats m 0 c).arrAt 4 cfg0.N = Cert.Mlp.whole (m ((c : Thread nD τ).loc main_arg0)) (m ((c : Thread nD τ).loc main_arg1))
      (m ((c : Thread nD τ).loc main_arg2)) (m ((c : Thread nD τ).loc main_arg3)) := by
  rw [(dats m 0 c).arrAt_eq_of_cover 4 _ (fun t _ => flushed_eq m c t) cover, V_main_arg0, found_w_in, found_w_hidden, found_w_out]

/-- The kernel's run: it ends with the result array at the perceptron of the arguments and the arguments unchanged. -/
theorem run : θ_run defs (onTc (τ := τ) (main (F := Ideal))) ⟨m, fun _ => 0, ρ⟩ fun r => ∀ c : Dev nD,
      r.2.mem ((c : Thread nD τ).loc main_v3) = Cert.Mlp.whole (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Tiles

end
-- ==== Proof.RefIsMlp.lean ====
/-
  The reference computes the perceptron of `MlpArray`.

  Each einsum `'bi,wi->bw'` is a product of the activations with the TRANSPOSE of a weight matrix: entry `(b, w)` is
  the sum over `k` of `h (b, k) · W (w, k)`, the activation on the left.  That is the dense layer's feature with
  the two factors of each product exchanged.  `relu` is the maximum with zero, and slice `l` of `w_hidden`,
  reshaped to a matrix, reads `w_hidden (l, w, k)` at `(w, k)`.
-/
import proofs.«119765_j59390807769684_2_alg».proof.Proof.Gen.ReferenceIdeal.Read
import proofs.«119765_j59390807769684_2_alg».proof.Proof.MlpArray

noncomputable section

open Idealize.ShloMosaic Idealize.ShloMosaic.ValueIdx Cert.DenseLayers

namespace Cert.ReferenceIdeal.RefValue

open Cert.ReferenceIdeal Cert.ReferenceIdeal.Read

variable (x0 : (⟨S1048576x64, .f32⟩ : BufTy).Contents (Elt Ideal)) (x1 : (⟨S64x64, .f32⟩ : BufTy).Contents (Elt Ideal))
  (x2 : (⟨S3x64x64, .f32⟩ : BufTy).Contents (Elt Ideal)) (x3 : (⟨S64x64, .f32⟩ : BufTy).Contents (Elt Ideal))

/-- Two rank-2 indices with the same coordinates are equal. -/
local macro "coords2" : tactic => `(tactic| (funext a; match a with | ⟨0, _⟩ => rfl | ⟨1, _⟩ => rfl))

/-- Slice 0 of the hidden weights as a matrix. -/
theorem hidden0 (w k : Fin 64) : val_main_v3 (F := Ideal) x2 (ix2 w k) = x2 (ix3 (0 : Fin 3) w k) := by
  rw [val_main_v3_apply, val_main_v2_apply]
  refine congrArg x2 (funext fun a => Fin.ext ?_)
  have hw := w.isLt; have hk := k.isLt
  match a with
  | ⟨0, _⟩ => rfl
  | ⟨1, _⟩ => show (w.val * 64 + k.val) / 64 % 64 = w.val; omega
  | ⟨2, _⟩ => show (w.val * 64 + k.val) % 64 = k.val; omega

/-- Slice 1. -/
theorem hidden1 (w k : Fin 64) : val_main_v7 (F := Ideal) x2 (ix2 w k) = x2 (ix3 (1 : Fin 3) w k) := by
  rw [val_main_v7_apply, val_main_v6_apply]
  refine congrArg x2 (funext fun a => Fin.ext ?_)
  have hw := w.isLt; have hk := k.isLt
  match a with
  | ⟨0, _⟩ => rfl
  | ⟨1, _⟩ => show (w.val * 64 + k.val) / 64 % 64 = w.val; omega
  | ⟨2, _⟩ => show (w.val * 64 + k.val) % 64 = k.val; omega

/-- Slice 2. -/
theorem hidden2 (w k : Fin 64) : val_main_v11 (F := Ideal) x2 (ix2 w k) = x2 (ix3 (2 : Fin 3) w k) := by
  rw [val_main_v11_apply, val_main_v10_apply]
  refine congrArg x2 (funext fun a => Fin.ext ?_)
  have hw := w.isLt; have hk := k.isLt
  match a with
  | ⟨0, _⟩ => rfl
  | ⟨1, _⟩ => show (w.val * 64 + k.val) / 64 % 64 = w.val; omega
  | ⟨2, _⟩ => show (w.val * 64 + k.val) % 64 = k.val; omega

/-- After the input layer: row `b` of the activations is the clipped input layer of row `b` of `x`. -/
theorem act1 (b : Fin 1048576) (w : Fin 64) :
    val_main_v1 (F := Ideal) x0 x1 (ix2 b w) = layer (fun w k => x1 (ix2 w k)) (fun k => x0 (ix2 b k)) w := by
  have el : ∀ k, lidx_main_v0 (ix2 b w) k = ix2 b k := fun k => by coords2
  have er : ∀ k, ridx_main_v0 (ix2 b w) k = ix2 w k := fun k => by coords2
  rw [val_main_v1_apply, val_main_v0_apply, val_main_call0_v0_apply, val_main_call0_cst_apply, layer_comm]
  show max _ (Ideal.ofBits .f32 0x00000000#32) = _
  rw [Ideal.ofBits_zero_f32]
  simp only [el, er]

/-- After the first hidden layer. -/
theorem act2 (b : Fin 1048576) (w : Fin 64) :
    val_main_v5 (F := Ideal) x0 x1 x2 (ix2 b w)
      = layer (fun w k => x2 (ix3 (0 : Fin 3) w k)) (layer (fun w k => x1 (ix2 w k)) (fun k => x0 (ix2 b k))) w := by
  have el : ∀ k, lidx_main_v4 (ix2 b w) k = ix2 b k := fun k => by coords2
  have er : ∀ k, ridx_main_v4 (ix2 b w) k = ix2 w k := fun k => by coords2
  rw [val_main_v5_apply, val_main_v4_apply, val_main_call1_v0_apply, val_main_call1_cst_apply, layer_comm]
  show max _ (Ideal.ofBits .f32 0x00000000#32) = _
  rw [Ideal.ofBits_zero_f32]
  simp only [el, er, act1, hidden0]

/-- After the second hidden layer. -/
theorem act3 (b : Fin 1048576) (w : Fin 64) :
    val_main_v9 (F := Ideal) x0 x1 x2 (ix2 b w)
      = layer (fun w k => x2 (ix3 (1 : Fin 3) w k)) (layer (fun w k => x2 (ix3 (0 : Fin 3) w k))
          (layer (fun w k => x1 (ix2 w k)) (fun k => x0 (ix2 b k)))) w := by
  have el : ∀ k, lidx_main_v8 (ix2 b w) k = ix2 b k := fun k => by coords2
  have er : ∀ k, ridx_main_v8 (ix2 b w) k = ix2 w k := fun k => by coords2
  rw [val_main_v9_apply, val_main_v8_apply, val_main_call2_v0_apply, val_main_call2_cst_apply, layer_comm]
  show max _ (Ideal.ofBits .f32 0x00000000#32) = _
  rw [Ideal.ofBits_zero_f32]
  simp only [el, er, act2, hidden1]

/-- After the third hidden layer. -/
theorem act4 (b : Fin 1048576) (w : Fin 64) :
    val_main_v13 (F := Ideal) x0 x1 x2 (ix2 b w)
      = layer (fun w k => x2 (ix3 (2 : Fin 3) w k)) (layer (fun w k => x2 (ix3 (1 : Fin 3) w k))
          (layer (fun w k => x2 (ix3 (0 : Fin 3) w k)) (layer (fun w k => x1 (ix2 w k)) (fun k => x0 (ix2 b k))))) w := by
  have el : ∀ k, lidx_main_v12 (ix2 b w) k = ix2 b k := fun k => by coords2
  have er : ∀ k, ridx_main_v12 (ix2 b w) k = ix2 w k := fun k => by coords2
  rw [val_main_v13_apply, val_main_v12_apply, val_main_call3_v0_apply, val_main_call3_cst_apply, layer_comm]
  show max _ (Ideal.ofBits .f32 0x00000000#32) = _
  rw [Ideal.ofBits_zero_f32]
  simp only [el, er, act3, hidden2]

/-- The reference's result is the perceptron over the batch. -/
theorem result_is_mlp : val_main_v14 (F := Ideal) x0 x1 x2 x3 = Cert.Mlp.whole x0 x1 x2 x3 := by
  funext i
  obtain ⟨b, o, rfl⟩ : ∃ (b : Fin 1048576) (o : Fin 64), i = ix2 b o := ⟨i 0, i 1, eq_ix2 i⟩
  have el : ∀ k, lidx_main_v14 (ix2 b o) k = ix2 b k := fun k => by coords2
  have er : ∀ k, ridx_main_v14 (ix2 b o) k = ix2 o k := fun k => by coords2
  rw [val_main_v14_apply, Cert.Mlp.whole_apply]
  unfold net
  rw [dense_comm]
  simp only [el, er, act4]

end Cert.ReferenceIdeal.RefValue

end
-- ==== Proof.lean ====
/-
  A narrow perceptron, tiled over the batch, against its einsum reference.

  Both programs take `x` (1,048,576 rows of 64 features) and 64 × 64 weight matrices `w_in`, three slices of
  `w_hidden` and `w_out`, stored as (output feature, input feature), and return for every row `b`

      out (b, ·) = W_out · relu (W_2 · relu (W_1 · relu (W_0 · relu (W_in · x (b, ·))))),

  where `(W · h) w = Σ_k W (w, k) · h k` and `relu` is the maximum with zero (`LibDenseLayers`, `MlpArray`).

  The kernel walks the batch in 128 tiles of 8192 rows.  On a tile it keeps the batch along the columns: it
  transposes the tile, multiplies each weight matrix on the left, and transposes the last product back, so every
  product has the weight as its left factor (`BodyAtEntry`).  The tiles cover all rows, and the weights it is handed
  are the arguments narrowed to a shorter float format, which on extended reals changes nothing (`TilesToArray`).
  The reference contracts the activations with the transpose of each weight matrix, so every product has the weight as
  its right factor (`RefIsMlp`).  The two sides differ by the order of the factors in each product, and
  multiplication of extended reals is commutative; no sum is reordered and no distributive law is used, so the
  equality holds for all extended-real inputs and the finiteness of the inputs is never called on.

  The kernel is printed without any rewrite of its operations, so there is nothing to preserve beyond the text itself.
-/
import proofs.«119765_j59390807769684_2_alg».proof.Defs
import proofs.«119765_j59390807769684_2_alg».proof.Proof.Gen.Kernel
import proofs.«119765_j59390807769684_2_alg».proof.Proof.Gen.Kernel.Skeleton
import proofs.«119765_j59390807769684_2_alg».proof.Proof.Gen.Kernel.Launch
import proofs.«119765_j59390807769684_2_alg».proof.Proof.Gen.Kernel.Points
import proofs.«119765_j59390807769684_2_alg».proof.Proof.Gen.Kernel.Frame
import proofs.«119765_j59390807769684_2_alg».proof.Proof.Gen.KernelIdeal
import proofs.«119765_j59390807769684_2_alg».proof.Proof.Gen.KernelIdeal.Skeleton
import proofs.«119765_j59390807769684_2_alg».proof.Proof.Gen.KernelIdeal.Launch
import proofs.«119765_j59390807769684_2_alg».proof.Proof.Gen.KernelIdeal.Points
import proofs.«119765_j59390807769684_2_alg».proof.Proof.Gen.KernelIdeal.Frame
import proofs.«119765_j59390807769684_2_alg».proof.Proof.Gen.ReferenceIdeal
import proofs.«119765_j59390807769684_2_alg».proof.Proof.Gen.Pre_finite_inputs
import proofs.«119765_j59390807769684_2_alg».proof.Proof.Gen.KernelIdeal.Value
import proofs.«119765_j59390807769684_2_alg».proof.Proof.Gen.ReferenceIdeal.Run
import proofs.«119765_j59390807769684_2_alg».proof.Proof.Gen.ReferenceIdeal.Read
import proofs.«119765_j59390807769684_2_alg».proof.Proof.TilesToArray
import proofs.«119765_j59390807769684_2_alg».proof.Proof.RefIsMlp
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel ends with its result array at the batch-wide
    perceptron of the arguments (`Tiles.run`) and the reference ends with its result at the same function of the same
    arguments (`RefValue.result_is_mlp`). -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_is_mlp,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
